-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S800000x96 : Shape := ⟨2, ![800000, 96]⟩
abbrev S800000x2 : Shape := ⟨2, ![800000, 2]⟩
abbrev S96x224 : Shape := ⟨2, ![96, 224]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S800000x96 : S_.BroadcastsInDim S800000x96 (![] : Fin 0 → Fin S800000x96.rank)
  reducesTo_S800000x96_S_d0_1 : S800000x96.ReducesTo [0, 1] S_
  bcast_S_S96x224 : S_.BroadcastsInDim S96x224 (![] : Fin 0 → Fin S96x224.rank)
  reducesTo_S96x224_S_d0_1 : S96x224.ReducesTo [0, 1] S_

variable [Facts]

def fn {F : FTy → Type} [FloatOps F] (main_arg0 : FVec F S100000x128 .f32) (main_arg1 : FVec F S800000x96 .f32) (main_arg2 : IVec S800000x2 32) (main_arg3 : FVec F S96x224 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S800000x96 .f32 := Host.absf main_arg1
  let main_cst_0 : FVec F S_ .f32 := constant S_ .f32 0x7F800000#32
  let main_v5 : FVec F S800000x96 .f32 := broadcastInDim S800000x96 ![] bcast_S_S800000x96 main_cst_0
  let main_v6 : IVec S800000x96 1 := cmpf .olt main_v4 main_v5
  let main_c_1 : IVec S_ 1 := constantI S_ 1 1#1
  let main_v7 : IVec S_ 1 := (fun x v => Host.reduce IntOp.andi x v reducesTo_S800000x96_S_d0_1 h_S_) main_v6 main_c_1
  let main_v8 : IVec S_ 1 := andi main_v3 main_v7
  let main_v9 : FVec F S96x224 .f32 := Host.absf main_arg3
  let main_cst_2 : FVec F S_ .f32 := constant S_ .f32 0x7F800000#32
  let main_v10 : FVec F S96x224 .f32 := broadcastInDim S96x224 ![] bcast_S_S96x224 main_cst_2
  let main_v11 : IVec S96x224 1 := cmpf .olt main_v9 main_v10
  let main_c_3 : IVec S_ 1 := constantI S_ 1 1#1
  let main_v12 : IVec S_ 1 := (fun x v => Host.reduce IntOp.andi x v reducesTo_S96x224_S_d0_1 h_S_) main_v11 main_c_3
  let main_v13 : IVec S_ 1 := andi main_v8 main_v12
  main_v13
-- ==== Kernel.lean ====
abbrev S100000x128 : Shape := ⟨2, ![100000, 128]⟩
abbrev S800000x96 : Shape := ⟨2, ![800000, 96]⟩
abbrev S800000x2 : Shape := ⟨2, ![800000, 2]⟩
abbrev S96x224 : Shape := ⟨2, ![96, 224]⟩
abbrev S800000x1 : Shape := ⟨2, ![800000, 1]⟩
abbrev S800000 : Shape := ⟨1, ![800000]⟩
abbrev S_ : Shape := ⟨0, ![]⟩
abbrev S100000x96 : Shape := ⟨2, ![100000, 96]⟩
abbrev S224x96 : Shape := ⟨2, ![224, 96]⟩
abbrev S4000x128 : Shape := ⟨2, ![4000, 128]⟩
abbrev S4000x96 : Shape := ⟨2, ![4000, 96]⟩
abbrev S4000x224 : Shape := ⟨2, ![4000, 224]⟩

abbrev nBuf : Space → Nat
  | .hbm => 12
  | .vmem => 7
  | .smem => 0
  | _ => 0

abbrev bufTy : (tb : Table) → Fin (tcTables nBuf tb) → BufTy
  | .hbm, ⟨0, _⟩ => ⟨S100000x128, .f32⟩
  | .hbm, ⟨1, _⟩ => ⟨S800000x96, .f32⟩
  | .hbm, ⟨2, _⟩ => ⟨S800000x2, .i32⟩
  | .hbm, ⟨3, _⟩ => ⟨S96x224, .f32⟩
  | .hbm, ⟨4, _⟩ => ⟨S800000x1, .i32⟩
  | .hbm, ⟨5, _⟩ => ⟨S800000, .i32⟩
  | .hbm, ⟨6, _⟩ => ⟨S_, .f32⟩
  | .hbm, ⟨7, _⟩ => ⟨S100000x96, .f32⟩
  | .hbm, ⟨8, _⟩ => ⟨S800000x1, .i32⟩
  | .hbm, ⟨9, _⟩ => ⟨S100000x96, .f32⟩
  | .hbm, ⟨10, _⟩ => ⟨S224x96, .f32⟩
  | .hbm, ⟨11, _⟩ => ⟨S100000x96, .f32⟩
  | .local _ .vmem, ⟨0, _⟩ => ⟨S4000x128, .f32⟩
  | .local _ .vmem, ⟨1, _⟩ => ⟨S4000x128, .f32⟩
  | .local _ .vmem, ⟨2, _⟩ => ⟨S4000x96, .f32⟩
  | .local _ .vmem, ⟨3, _⟩ => ⟨S4000x96, .f32⟩
  | .local _ .vmem, ⟨4, _⟩ => ⟨S224x96, .f32⟩
  | .local _ .vmem, ⟨5, _⟩ => ⟨S4000x96, .f32⟩
  | .local _ .vmem, ⟨6, _⟩ => ⟨S4000x96, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x96 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S224x96 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4000x96 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  slices_S800000x2_S800000x1_0_0 : S800000x2.Slices ![0, 0] S800000x1
  shapeCasts_S800000x1_S800000 : S800000x1.ShapeCasts S800000
  bcast_S_S100000x96 : S_.BroadcastsInDim S100000x96 (![] : Fin 0 → Fin S100000x96.rank)
  bcast_S800000_S800000x1_0 : S800000.BroadcastsInDim S800000x1 (![0] : Fin 1 → Fin S800000x1.rank)
  transposes_S96x224_S224x96_1_0 : S96x224.Transposes [1, 0] S224x96
  inb_S4000x128_S4000x128_0_0 : ∀ a, (![0, 0] : Fin 2 → Nat) a + S4000x128.size a ≤ S4000x128.size a
  h_S4000x128 : 0 < S4000x128.numel
  inb_S4000x96_S4000x96_0_0 : ∀ a, (![0, 0] : Fin 2 → Nat) a + S4000x96.size a ≤ S4000x96.size a
  h_S4000x96 : 0 < S4000x96.numel
  shapeCasts_S4000x96_S4000x96 : S4000x96.ShapeCasts S4000x96
  concatenates_S4000x128_S4000x96_S4000x224_d1 : Shape.Concatenates [S4000x128, S4000x96] S4000x224 1
  bitsLt_bf16_f32 : FTy.bits .bf16 < FTy.bits .f32
  inb_S224x96_S224x96_0_0 : ∀ a, (![0, 0] : Fin 2 → Nat) a + S224x96.size a ≤ S224x96.size a
  h_S224x96 : 0 < S224x96.numel
  shapeCasts_S224x96_S224x96 : S224x96.ShapeCasts S224x96
  scatter_S100000x96_S800000x1_S800000x96_1_0_0_1_wf : ScatterDims.WF S100000x96 S800000x1 S800000x96 [1] [0] [0] 1
  dot_S4000x224_S224x96_S4000x96_1_0_0_1_n_n_wf : DotDims.WF S4000x224 S224x96 S4000x96 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x96.size a ≤ S100000x96.size a
  hwx0_1 : ∀ i : grid0.Coords, EltTy.bits .f32 = 32 ∨ (Rect.block (s := S100000x96) S4000x96.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S224x96.size a ≤ S224x96.size a
  hwx0_2 : ∀ i : grid0.Coords, EltTy.bits .f32 = 32 ∨ (Rect.block (s := S224x96) S224x96.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x96.size a ≤ S100000x96.size a
  hwx0_3 : ∀ i : grid0.Coords, EltTy.bits .f32 = 32 ∨ (Rect.block (s := S100000x96) S4000x96.size (cc0_transform_3 i) (hinb0_3 i)).WholeWords (EltTy.packing .f32)

variable [Facts₀]

def scatter_S100000x96_S800000x1_S800000x96_1_0_0_1 : ScatterDims S100000x96 S800000x1 S800000x96 where
  updateWindowDims := [1]
  insertedWindowDims := [0]
  scatterDimsToOperandDims := [0]
  indexVectorDim := 1
  wf := scatter_S100000x96_S800000x1_S800000x96_1_0_0_1_wf
def dot_S4000x224_S224x96_S4000x96_1_0_0_1_n_n : DotDims S4000x224 S224x96 S4000x96 where
  lhsContracting := [1]
  rhsContracting := [0]
  lhsNonContracting := [0]
  rhsNonContracting := [1]
  lhsBatch := []
  rhsBatch := []
  wf := dot_S4000x224_S224x96_S4000x96_1_0_0_1_n_n_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S4000x96.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S224x96.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S4000x96.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S100000x128 : Shape := ⟨2, ![100000, 128]⟩
abbrev S800000x96 : Shape := ⟨2, ![800000, 96]⟩
abbrev S800000x2 : Shape := ⟨2, ![800000, 2]⟩
abbrev S96x224 : Shape := ⟨2, ![96, 224]⟩
abbrev S800000x1 : Shape := ⟨2, ![800000, 1]⟩
abbrev S800000 : Shape := ⟨1, ![800000]⟩
abbrev S_ : Shape := ⟨0, ![]⟩
abbrev S100000x96 : Shape := ⟨2, ![100000, 96]⟩
abbrev S100000x224 : Shape := ⟨2, ![100000, 224]⟩
abbrev S224x96 : Shape := ⟨2, ![224, 96]⟩

abbrev nBuf : Space → Nat
  | .hbm => 16
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S800000x96, .f32⟩
  | .hbm, ⟨2, _⟩ => ⟨S800000x2, .i32⟩
  | .hbm, ⟨3, _⟩ => ⟨S96x224, .f32⟩
  | .hbm, ⟨4, _⟩ => ⟨S800000x1, .i32⟩
  | .hbm, ⟨5, _⟩ => ⟨S800000, .i32⟩
  | .hbm, ⟨6, _⟩ => ⟨S_, .f32⟩
  | .hbm, ⟨7, _⟩ => ⟨S100000x96, .f32⟩
  | .hbm, ⟨8, _⟩ => ⟨S800000x1, .i32⟩
  | .hbm, ⟨9, _⟩ => ⟨S100000x96, .f32⟩
  | .hbm, ⟨10, _⟩ => ⟨S100000x224, .f32⟩
  | .hbm, ⟨11, _⟩ => ⟨S224x96, .f32⟩
  | .hbm, ⟨12, _⟩ => ⟨S100000x96, .f32⟩
  | .hbm, ⟨13, _⟩ => ⟨S_, .f32⟩
  | .hbm, ⟨14, _⟩ => ⟨S100000x96, .f32⟩
  | .hbm, ⟨15, _⟩ => ⟨S100000x96, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_call0_cst : Ref sig .tc := ⟨.hbm, 13, rfl⟩
abbrev main_call0_v0 : Ref sig .tc := ⟨.hbm, 14, rfl⟩
abbrev main_v8 : Ref sig .tc := ⟨.hbm, 15, rfl⟩

abbrev nD : Nat := 1
abbrev τ : Topo := Topo.v7x

variable {F : FTy → Type} [FloatOps F]

class Facts₀ : Prop where
  slices_S800000x2_S800000x1_0_0 : S800000x2.Slices ![0, 0] S800000x1
  shapeCasts_S800000x1_S800000 : S800000x1.ShapeCasts S800000
  bcast_S_S100000x96 : S_.BroadcastsInDim S100000x96 (![] : Fin 0 → Fin S100000x96.rank)
  bcast_S800000_S800000x1_0 : S800000.BroadcastsInDim S800000x1 (![0] : Fin 1 → Fin S800000x1.rank)
  concatenates_S100000x128_S100000x96_S100000x224_d1 : Shape.Concatenates [S100000x128, S100000x96] S100000x224 1
  transposes_S96x224_S224x96_1_0 : S96x224.Transposes [1, 0] S224x96
  scatter_S100000x96_S800000x1_S800000x96_1_0_0_1_wf : ScatterDims.WF S100000x96 S800000x1 S800000x96 [1] [0] [0] 1
  dot_S100000x224_S224x96_S100000x96_1_0_0_1_n_n_wf : DotDims.WF S100000x224 S224x96 S100000x96 [1] [0] [0] [1] [] []

variable [Facts₀]

def scatter_S100000x96_S800000x1_S800000x96_1_0_0_1 : ScatterDims S100000x96 S800000x1 S800000x96 where
  updateWindowDims := [1]
  insertedWindowDims := [0]
  scatterDimsToOperandDims := [0]
  indexVectorDim := 1
  wf := scatter_S100000x96_S800000x1_S800000x96_1_0_0_1_wf
def dot_S100000x224_S224x96_S100000x96_1_0_0_1_n_n : DotDims S100000x224 S224x96 S100000x96 where
  lhsContracting := [1]
  rhsContracting := [0]
  lhsNonContracting := [0]
  rhsNonContracting := [1]
  lhsBatch := []
  rhsBatch := []
  wf := dot_S100000x224_S224x96_S100000x96_1_0_0_1_n_n_wf

class Facts : Prop extends Facts₀ where

variable [Facts]
-- ==== Proof.LibDot.lean ====
/-
  A plain matrix product read at an index, at the ideal values: for the dimension numbers
  "contract the left operand's axis 1 with the right operand's axis 0, no batch axis" — the record every
  `jnp.dot` / `x @ y` of two matrices prints, whatever its name — the host's `dot_general` and the kernel's
  matrix-unit product into a zero accumulator are both, at (a, b), the sum over c of A (a, c) * B (c, b).
-/
import Idealize.ShloMosaic.Lib.ValueIdx
import Idealize.ShloMosaic.PureOps.Ideal.Laws

noncomputable section

namespace Cert.LibDot

open Idealize.ShloMosaic Idealize.ShloMosaic.ValueIdx
open scoped BigOperators

variable {m k n : Nat} {φ₁ φ₂ : FTy}

/-- The record: left contracting axis 1, right contracting axis 0, kept axes 0 and 1, no batch axis. -/
abbrev dims (w : DotDims.WF ⟨2, ![m, k]⟩ ⟨2, ![k, n]⟩ ⟨2, ![m, n]⟩ [1] [0] [0] [1] [] []) :
    DotDims ⟨2, ![m, k]⟩ ⟨2, ![k, n]⟩ ⟨2, ![m, n]⟩ := ⟨[1], [0], [0], [1], [], [], w⟩

theorem lhsIdx_eq (w : DotDims.WF ⟨2, ![m, k]⟩ ⟨2, ![k, n]⟩ ⟨2, ![m, n]⟩ [1] [0] [0] [1] [] [])
    (a : Fin m) (b : Fin n) (c : Fin k) :
    (dims w).lhsIdx (ix2 a b) ((contrEquiv1 (dims w) k rfl rfl).symm c) = ix2 a c := by
  have c2 := contrEquiv1_symm_val (dims w) k rfl rfl c
  funext ax; apply Fin.ext
  match ax with
  | ⟨0, _⟩ => simp [DotDims.lhsIdx]; rfl
  | ⟨1, _⟩ => simp [DotDims.lhsIdx]; exact c2

theorem rhsIdx_eq (w : DotDims.WF ⟨2, ![m, k]⟩ ⟨2, ![k, n]⟩ ⟨2, ![m, n]⟩ [1] [0] [0] [1] [] [])
    (a : Fin m) (b : Fin n) (c : Fin k) :
    (dims w).rhsIdx (ix2 a b) ((contrEquiv1 (dims w) k rfl rfl).symm c) = ix2 c b := by
  have c2 := contrEquiv1_symm_val (dims w) k rfl rfl c
  funext ax; apply Fin.ext
  match ax with
  | ⟨0, _⟩ => simp [DotDims.rhsIdx]; exact c2
  | ⟨1, _⟩ => simp [DotDims.rhsIdx]; rfl

/-- The host's product of two matrices at (a, b): the sum over the contracted coordinate. -/
theorem dotGeneral_apply (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    Host.dotGeneral (dims w) prec A B (ix2 a b) = ∑ c : Fin k, A (ix2 a c) * B (ix2 c b) := by
  show FloatOps.dotGeneral _ prec _ A B (ix2 a b) = _
  rw [Ideal.dotGeneral_apply, ← Equiv.sum_comp (contrEquiv1 (dims w) k rfl rfl).symm]
  refine Finset.sum_congr rfl fun c _ => ?_
  rw [lhsIdx_eq, rhsIdx_eq]

/-- The matrix unit's product into a zero accumulator at (a, b): the same sum. -/
theorem matmul_zero_apply (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    matmul (dims w) prec A B (constant ⟨2, ![m, n]⟩ .f32 0x00000000#32) (ix2 a b) = ∑ c : Fin k, A (ix2 a c) * B (ix2 c b) := by
  show FloatOps.matmul _ prec A B _ (ix2 a b) = _
  rw [Ideal.matmul_constant_zero_apply, ← Equiv.sum_comp (contrEquiv1 (dims w) k rfl rfl).symm]
  refine Finset.sum_congr rfl fun c _ => ?_
  rw [lhsIdx_eq, rhsIdx_eq]

end Cert.LibDot
-- ==== Proof.LibConcatCols.lean ====
/-
  Two matrices with the same number of rows laid side by side (a concatenation along axis 1) read at an entry:
  entry (p, c) of the joined n × t matrix is entry (p, c) of the left n × a piece when c < a, and entry (p, c - a)
  of the right n × b piece otherwise (a + b = t). A consequence: if row p of two pieces agrees, column by column,
  with row p' of two other pieces of the same widths, then row p of the first join is row p' of the second.
-/
import Idealize.ShloMosaic.Lib.Pipeline.Value
import Idealize.ShloMosaic.Lib.ValueIdx

noncomputable section

namespace Cert.LibConcatCols

open Idealize.ShloMosaic Idealize.ShloMosaic.ValueIdx

variable {α : Type} {n a b t : Nat}

/-- Entry (p, c) of two pieces joined along the columns: the left piece's entry when c is one of its columns,
    otherwise the right piece's entry, a columns further left. -/
theorem concat_cols_apply (hab : a + b = t)
    (x : (⟨2, ![n, a]⟩ : Shape).Idx → α) (y : (⟨2, ![n, b]⟩ : Shape).Idx → α)
    (h : Shape.Concatenates [(⟨2, ![n, a]⟩ : Shape), ⟨2, ![n, b]⟩] ⟨2, ![n, t]⟩ 1) (p : Fin n) (c : Fin t) :
    concatenate (⟨2, ![n, t]⟩ : Shape) 1 [⟨⟨2, ![n, a]⟩, x⟩, ⟨⟨2, ![n, b]⟩, y⟩] h (ix2 p c)
      = if hc : c.val < a then x (ix2 p ⟨c.val, hc⟩) else y (ix2 p ⟨c.val - a, by omega⟩) := by
  split
  · next hc =>
    exact concatenate_pair_apply_left (1 : Fin 2) x y h (ix2 p c) rfl (ix2 p ⟨c.val, hc⟩)
      (fun d => match d with | ⟨0, _⟩ => rfl | ⟨1, _⟩ => rfl)
  · next hc =>
    exact concatenate_pair_apply_right (1 : Fin 2) x y h (ix2 p c) rfl rfl (ix2 p ⟨c.val - a, by omega⟩)
      (fun d hd => match d, hd with
        | ⟨0, _⟩, _ => rfl
        | ⟨1, _⟩, hd => absurd rfl hd)
      (by show (c.val - a) + a = c.val; omega)

/-- Rows that agree piece by piece agree after the pieces are joined: if row p of x is row p' of x' and row p of y is
    row p' of y', then row p of [x | y] is row p' of [x' | y']. -/
theorem concat_cols_row_congr {n' : Nat} (hab : a + b = t)
    (x : (⟨2, ![n, a]⟩ : Shape).Idx → α) (y : (⟨2, ![n, b]⟩ : Shape).Idx → α)
    (x' : (⟨2, ![n', a]⟩ : Shape).Idx → α) (y' : (⟨2, ![n', b]⟩ : Shape).Idx → α)
    (h : Shape.Concatenates [(⟨2, ![n, a]⟩ : Shape), ⟨2, ![n, b]⟩] ⟨2, ![n, t]⟩ 1)
    (h' : Shape.Concatenates [(⟨2, ![n', a]⟩ : Shape), ⟨2, ![n', b]⟩] ⟨2, ![n', t]⟩ 1)
    (p : Fin n) (p' : Fin n')
    (hx : ∀ c : Fin a, x (ix2 p c) = x' (ix2 p' c)) (hy : ∀ c : Fin b, y (ix2 p c) = y' (ix2 p' c)) (c : Fin t) :
    concatenate (⟨2, ![n, t]⟩ : Shape) 1 [⟨⟨2, ![n, a]⟩, x⟩, ⟨⟨2, ![n, b]⟩, y⟩] h (ix2 p c)
      = concatenate (⟨2, ![n', t]⟩ : Shape) 1 [⟨⟨2, ![n', a]⟩, x'⟩, ⟨⟨2, ![n', b]⟩, y'⟩] h' (ix2 p' c) := by
  rw [concat_cols_apply hab, concat_cols_apply hab]
  split
  · exact hx _
  · exact hy _

end Cert.LibConcatCols
-- ==== Proof.Spec.lean ====
/-
  The function both programs compute, on the extended reals. From node features r (100000 × 128), aggregated
  messages M (100000 × 96) and a transposed weight matrix Wt (224 × 96):

      out (a, q) = max (Σ_{c < 224} [r | M] (a, c) · Wt (c, q)) 0,

  where [r | M] is the two matrices side by side: column c is r's column c for c < 128 and M's column c − 128 after.
  Only the order of the 224 summands matters to neither side (both sum c = 0 … 223), and no law of arithmetic beyond
  0 + x = x is used, so nothing here asks the entries to be finite.
-/
import Idealize.ShloMosaic.Lib.ValueIdx
import Idealize.ShloMosaic.PureOps.Ideal

noncomputable section

namespace Cert.Spec

open Idealize.ShloMosaic Idealize.ShloMosaic.ValueIdx
open scoped BigOperators

/-- Entry (a, c) of [r | M]. -/
def catRow (r : FVec Ideal ⟨2, ![100000, 128]⟩ .f32) (M : FVec Ideal ⟨2, ![100000, 96]⟩ .f32)
    (a : Fin 100000) (c : Fin 224) : EReal :=
  if hc : c.val < 128 then r (ix2 a ⟨c.val, hc⟩) else M (ix2 a ⟨c.val - 128, by omega⟩)

/-- relu ([r | M] · Wt), entry by entry. -/
def reluProj (r : FVec Ideal ⟨2, ![100000, 128]⟩ .f32) (M : FVec Ideal ⟨2, ![100000, 96]⟩ .f32)
    (Wt : FVec Ideal ⟨2, ![224, 96]⟩ .f32) : FVec Ideal ⟨2, ![100000, 96]⟩ .f32 :=
  fun i => max (∑ c : Fin 224, catRow r M (i 0) c * Wt (ix2 c (i 1))) 0

theorem reluProj_apply (r : FVec Ideal ⟨2, ![100000, 128]⟩ .f32) (M : FVec Ideal ⟨2, ![100000, 96]⟩ .f32)
    (Wt : FVec Ideal ⟨2, ![224, 96]⟩ .f32) (a : Fin 100000) (q : Fin 96) :
    reluProj r M Wt (ix2 a q) = max (∑ c : Fin 224, catRow r M a c * Wt (ix2 c q)) 0 := rfl

end Cert.Spec
-- ==== Proof.KernelPoint.lean ====
/-
  One entry of what the kernel body stores at a grid point, on the extended reals. The body joins its 4000 × 128
  block of r and its 4000 × 96 block of M side by side, multiplies the 4000 × 224 result by its 224 × 96 copy of Wt
  on the matrix unit from a zero accumulator, and takes the maximum with 0. A change of float format is the identity
  on the extended reals. So if row p of the two blocks is row a of r and of M, and column q of the third block is
  column q of Wt, entry (p, q) of the stored block is entry (a, q) of relu ([r | M] · Wt).
-/
import proofs.«123264_j2319282340444_1_alg».proof.Proof.Gen.KernelIdeal.Skeleton
import proofs.«123264_j2319282340444_1_alg».proof.Proof.LibDot
import proofs.«123264_j2319282340444_1_alg».proof.Proof.LibConcatCols
import proofs.«123264_j2319282340444_1_alg».proof.Proof.Spec
import Idealize.ShloMosaic.Lib.Pipeline.Value

noncomputable section

namespace Cert.KernelPoint

open Idealize.ShloMosaic Idealize.ShloMosaic.ValueIdx
open Cert.KernelIdeal Cert.KernelIdeal.Gen
open scoped BigOperators

/-- The body's dimension numbers are the plain matrix product's. -/
theorem dims_eq : dot_S4000x224_S224x96_S4000x96_1_0_0_1_n_n
    = LibDot.dims Facts₀.dot_S4000x224_S224x96_S4000x96_1_0_0_1_n_n_wf := rfl

/-- Entry (p, q) of the stored block, from rows of r and M and a column of Wt. -/
theorem pay_apply (x0 : Vec Ideal S4000x128 .f32) (x1 : Vec Ideal S4000x96 .f32) (x2 : Vec Ideal S224x96 .f32)
    (r : FVec Ideal ⟨2, ![100000, 128]⟩ .f32) (M : FVec Ideal ⟨2, ![100000, 96]⟩ .f32) (Wt : FVec Ideal ⟨2, ![224, 96]⟩ .f32)
    (p : Fin 4000) (q : Fin 96) (a : Fin 100000)
    (h0 : ∀ c : Fin 128, x0 (ix2 p c) = r (ix2 a c)) (h1 : ∀ c : Fin 96, x1 (ix2 p c) = M (ix2 a c))
    (h2 : ∀ c : Fin 224, x2 (ix2 c q) = Wt (ix2 c q)) :
    k0_pay1 (F := Ideal) x0 x1 x2 (ix2 p q) = Spec.reluProj r M Wt (ix2 a q) := by
  unfold k0_pay1
  rw [Spec.reluProj_apply]
  show max (matmul dot_S4000x224_S224x96_S4000x96_1_0_0_1_n_n none _ _ (constant S4000x96 .f32 0x00000000#32) (ix2 p q))
      (Ideal.ofBits .f32 0x00000000#32) = _
  rw [Ideal.ofBits_zero_f32, dims_eq, LibDot.matmul_zero_apply]
  congr 1
  refine Finset.sum_congr rfl fun c _ => ?_
  rw [truncf_apply, truncf_apply, shapeCast_self, shapeCast_self, h2 c,
    LibConcatCols.concat_cols_apply (by decide)]
  unfold Spec.catRow
  split
  · rw [h0]
  · rw [h1]

/-- The same at any entry j of the stored block and any entry i of the array in the same column, given the rows and
    the column as above. -/
theorem pay_at (x0 : Vec Ideal S4000x128 .f32) (x1 : Vec Ideal S4000x96 .f32) (x2 : Vec Ideal S224x96 .f32)
    (r : FVec Ideal ⟨2, ![100000, 128]⟩ .f32) (M : FVec Ideal ⟨2, ![100000, 96]⟩ .f32) (Wt : FVec Ideal ⟨2, ![224, 96]⟩ .f32)
    (j : S4000x96.Idx) (i : S100000x96.Idx) (hq : (i 1).val = (j 1).val)
    (h0 : ∀ c : Fin 128, x0 (ix2 (j 0) c) = r (ix2 (i 0) c)) (h1 : ∀ c : Fin 96, x1 (ix2 (j 0) c) = M (ix2 (i 0) c))
    (h2 : ∀ c : Fin 224, x2 (ix2 c (j 1)) = Wt (ix2 c (j 1))) :
    k0_pay1 (F := Ideal) x0 x1 x2 j = Spec.reluProj r M Wt i := by
  have ej : j = ix2 (j 0) (j 1) := eq_ix2 j
  have ei : i = ix2 (i 0) (j 1) := by
    rw [show j 1 = i 1 from Fin.ext hq.symm]; exact eq_ix2 i
  rw [ej, ei]
  exact pay_apply x0 x1 x2 r M Wt (j 0) (j 1) (i 0) h0 h1 h2

end Cert.KernelPoint
-- ==== Proof.KernelArray.lean ====
/-
  From blocks to the array. The grid has 25 points; point t reads rows 4000 t … 4000 t + 3999 of r and of the
  aggregated messages M, the whole transposed weight matrix Wt, and writes back rows 4000 t … 4000 t + 3999 of the
  result. By the entry-wise reading of the body, what point t writes back is block t of relu ([r | M] · Wt); row a of
  the result lies in the block of point a / 4000, so the 25 blocks cover the array and the array ends holding
  relu ([r | M] · Wt). M and Wt are what the host operations before the kernel left: the scatter-add of the edge
  messages onto their destination nodes, and the transpose of the weights.
-/
import proofs.«123264_j2319282340444_1_alg».proof.Proof.Gen.KernelIdeal.Value
import proofs.«123264_j2319282340444_1_alg».proof.Proof.KernelPoint
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelArray

open Cert.KernelIdeal Cert.KernelIdeal.Gen

variable (m : (ℓ : Loc nD τ sig) → Buf (Elt Ideal) ℓ) (ρ : Dev nD → PrngReg)

theorem hz : (![0, 0] : Fin 2 → Nat) = fun _ => 0 := funext fun a => by fin_cases a <;> rfl

/-- The block indices at point t: the row windows are at block row t, the weights at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Entry x of the block at point t of a 100000 × 128 array is entry k of the array, when k is x moved down 4000 t rows. -/
theorem blk0_read (A : S100000x128.Idx → Elt Ideal .f32) (t : Fin cfg0.N) (x : S4000x128.Idx) (k : S100000x128.Idx)
    (hk0 : (k 0).val = 4000 * t.val + (x 0).val) (hk1 : (k 1).val = (x 1).val) :
    (((cfg0.win 0).blk t).view.read (Elt Ideal) A : Vec Ideal S4000x128 .f32) x = A k := by
  obtain ⟨e00, e01, -⟩ := idx_facts t
  rw [View.read_apply]
  refine congrArg A (funext fun a => Fin.ext ?_)
  match a with
  | ⟨0, _⟩ => show win0_0.index t 0 * 4000 + 1 * (x 0).val = (k 0).val; rw [e00, hk0]; omega
  | ⟨1, _⟩ => show win0_0.index t 1 * 128 + 1 * (x 1).val = (k 1).val; rw [e01, hk1]; omega

/-- The same for the block at point t of a 100000 × 96 array read through the second window. -/
theorem blk1_read (A : S100000x96.Idx → Elt Ideal .f32) (t : Fin cfg0.N) (x : S4000x96.Idx) (k : S100000x96.Idx)
    (hk0 : (k 0).val = 4000 * t.val + (x 0).val) (hk1 : (k 1).val = (x 1).val) :
    (((cfg0.win 1).blk t).view.read (Elt Ideal) A : Vec Ideal S4000x96 .f32) x = A k := by
  obtain ⟨-, -, e10, e11, -⟩ := idx_facts t
  rw [View.read_apply]
  refine congrArg A (funext fun a => Fin.ext ?_)
  match a with
  | ⟨0, _⟩ => show win0_1.index t 0 * 4000 + 1 * (x 0).val = (k 0).val; rw [e10, hk0]; omega
  | ⟨1, _⟩ => show win0_1.index t 1 * 96 + 1 * (x 1).val = (k 1).val; rw [e11, hk1]; omega

/-- The third window's block at any point is its whole 224 × 96 array. -/
theorem blk2_read (A : S224x96.Idx → Elt Ideal .f32) (t : Fin cfg0.N) (x : S224x96.Idx) :
    (((cfg0.win 2).blk t).view.read (Elt Ideal) A : Vec Ideal S224x96 .f32) x = A x := by
  obtain ⟨-, -, -, -, e20, e21, -⟩ := idx_facts t
  rw [View.read_apply]
  refine congrArg A (funext fun a => Fin.ext ?_)
  match a with
  | ⟨0, _⟩ => show win0_2.index t 0 * 224 + 1 * (x 0).val = (x 0).val; rw [e20]; omega
  | ⟨1, _⟩ => show win0_2.index t 1 * 96 + 1 * (x 1).val = (x 1).val; rw [e21]; omega

/-- What the body leaves at point t, from the blocks at t of any three arrays A0 (100000 × 128), A1 (100000 × 96) and
    A2 (224 × 96), is block t of relu ([A0 | A1] · A2). -/
theorem block_eq (A0 : S100000x128.Idx → Elt Ideal .f32) (A1 : S100000x96.Idx → Elt Ideal .f32)
    (A2 : S224x96.Idx → Elt Ideal .f32) (t : Fin cfg0.N) :
    (cfg0.win 3).cut (grid0.coords t)
        (out0_3 (F := Ideal) (((cfg0.win 0).blk t).view.read (Elt Ideal) A0) (((cfg0.win 1).blk t).view.read (Elt Ideal) A1)
          (((cfg0.win 2).blk t).view.read (Elt Ideal) A2))
      = ((cfg0.win 3).blk t).view.read (Elt Ideal) (Spec.reluProj A0 A1 A2) := by
  unfold out0_3
  rw [View.canon_unit_zero hz]
  simp only [View.ld_unit_zero (S := S4000x128) hz, View.ld_unit_zero (S := S4000x96) hz, View.ld_unit_zero (S := S224x96) hz]
  obtain ⟨-, -, -, -, -, -, e30, e31⟩ := idx_facts t
  funext j
  show k0_pay1 (F := Ideal) (((cfg0.win 0).blk t).view.read (Elt Ideal) A0) (((cfg0.win 1).blk t).view.read (Elt Ideal) A1)
      (((cfg0.win 2).blk t).view.read (Elt Ideal) A2) j
    = Spec.reluProj A0 A1 A2 (((cfg0.win 3).blk t).view.emb j)
  have h0r : ((((cfg0.win 3).blk t).view.emb j) 0).val = 4000 * t.val + (j 0).val := by
    show win0_3.index t 0 * 4000 + 1 * (j 0).val = _; rw [e30]; omega
  have h1r : ((((cfg0.win 3).blk t).view.emb j) 1).val = (j 1).val := by
    show win0_3.index t 1 * 96 + 1 * (j 1).val = _; rw [e31]; omega
  refine KernelPoint.pay_at (((cfg0.win 0).blk t).view.read (Elt Ideal) A0) (((cfg0.win 1).blk t).view.read (Elt Ideal) A1)
    (((cfg0.win 2).blk t).view.read (Elt Ideal) A2) A0 A1 A2 j (((cfg0.win 3).blk t).view.emb j) h1r ?_ ?_ ?_
  · exact fun cc => blk0_read A0 t (ix2 (j 0) cc) (ix2 ((((cfg0.win 3).blk t).view.emb j) 0) cc) h0r rfl
  · exact fun cc => blk1_read A1 t (ix2 (j 0) cc) (ix2 ((((cfg0.win 3).blk t).view.emb j) 0) cc) h0r rfl
  · exact fun cc => blk2_read A2 t (ix2 cc (j 1))

/-- The result as one function of the arrays the kernel finds. -/
abbrev result (c : Dev nD) : S100000x96.Idx → Elt Ideal .f32 :=
  Spec.reluProj (V m c main_arg0) (V m c main_v4) (V m c main_v5)

/-- What point t writes back is block t of the result. -/
theorem flushed_eq (c : Dev nD) (t : Fin cfg0.N) :
    (dats m 0 c).flushed 3 t = ((cfg0.win 3).blk t).view.read (Elt Ideal) (result m c) := by
  rw [Value.flushed3]
  unfold iblk
  exact block_eq (V m c main_arg0) (V m c main_v4) (V m c main_v5) t

/-- An entry of the result array lies in point t's block iff each coordinate lies in the block's range. -/
theorem mem_blk (t : Fin cfg0.N) (i : S100000x96.Idx) :
    i ∈ ((cfg0.win 3).blk t).view.set ↔ ∀ a : Fin 2, win0_3.index t a * S4000x96.size a ≤ (i a).val
      ∧ (i a).val < win0_3.index t a * S4000x96.size a + S4000x96.size a := by
  show i ∈ ((View.whole main_v6).slice (win0_3.rect t)).set ↔ _
  rw [View.set_slice_whole, Rect.mem_set_unit]
  exact Iff.rfl

/-- Row a of the result lies in the block of point a / 4000: the blocks cover the array. -/
theorem cover (i : S100000x96.Idx) :
    ∃ t : Fin cfg0.N, (cfg0.win 3).flush t = true ∧ i ∈ ((cfg0.win 3).blk t).view.set := by
  have hN : cfg0.N = 25 := N_0
  have hi0 : (i 0).val < 100000 := (i 0).isLt
  have hi1 : (i 1).val < 96 := (i 1).isLt
  have ht : (i 0).val / 4000 < cfg0.N := by rw [hN]; omega
  refine ⟨⟨(i 0).val / 4000, ht⟩, flush0_3 _, ?_⟩
  obtain ⟨-, -, -, -, -, -, e30, e31⟩ := idx_facts ⟨(i 0).val / 4000, ht⟩
  rw [mem_blk]
  intro a
  match a with
  | ⟨0, _⟩ =>
    show win0_3.index ⟨(i 0).val / 4000, ht⟩ 0 * 4000 ≤ (i 0).val
      ∧ (i 0).val < win0_3.index ⟨(i 0).val / 4000, ht⟩ 0 * 4000 + 4000
    rw [e30]; show (i 0).val / 4000 * 4000 ≤ (i 0).val ∧ (i 0).val < (i 0).val / 4000 * 4000 + 4000; omega
  | ⟨1, _⟩ =>
    show win0_3.index ⟨(i 0).val / 4000, ht⟩ 1 * 96 ≤ (i 1).val
      ∧ (i 1).val < win0_3.index ⟨(i 0).val / 4000, ht⟩ 1 * 96 + 96
    rw [e31]; omega

/-- After the run the result array holds relu ([r | M] · Wt) of the arrays the kernel finds. -/
theorem final (c : Dev nD) : (dats m 0 c).arrAt 3 cfg0.N = result m c :=
  (dats m 0 c).arrAt_eq_of_cover 3 (result m c) (fun t _ => flushed_eq m c t) (cover)

/-! ## What the host operations before the kernel leave -/

/-- The aggregated messages: each edge's message row added onto the row of its destination node (the edge list's
    first column), starting from zero. -/
abbrev msgs (c : Dev nD) : S100000x96.Idx → Elt Ideal .f32 :=
  Host.scatterAdd scatter_S100000x96_S800000x1_S800000x96_1_0_0_1
    (broadcastInDim S100000x96 ![] Facts₀.bcast_S_S100000x96 (constant (F := Ideal) S_ .f32 0x00000000#32))
    (broadcastInDim S800000x1 ![0] Facts₀.bcast_S800000_S800000x1_0
      (shapeCast _ (extractStridedSlice S800000x1 ![0, 0] (m ((c : Thread nD τ).loc main_arg2)) Facts₀.slices_S800000x2_S800000x1_0_0)
        Facts₀.shapeCasts_S800000x1_S800000))
    (m ((c : Thread nD τ).loc main_arg1))

/-- The transposed weights. -/
abbrev wT (c : Dev nD) : S224x96.Idx → Elt Ideal .f32 :=
  transpose S224x96 [1, 0] (m ((c : Thread nD τ).loc main_arg3)) Facts₀.transposes_S96x224_S224x96_1_0

theorem V_msgs (c : Dev nD) : (V m c main_v4 : S100000x96.Idx → Elt Ideal .f32) = msgs m c := by
  dsimp only [Gen.V, Gen.hostOps0]; after_results <;> rfl

theorem V_wT (c : Dev nD) : (V m c main_v5 : S224x96.Idx → Elt Ideal .f32) = wT m c := by
  dsimp only [Gen.V, Gen.hostOps0]; after_results <;> rfl

/-! ## The run, read -/

/-- Every weakly fair execution ends with the result array at relu ([r | M] · Wt) of the arguments — M the aggregated
    messages, Wt the transposed weights — and the arguments unchanged. -/
theorem run : θ_run defs (onTc (τ := τ) (main (F := Ideal))) ⟨m, fun _ => 0, ρ⟩ fun r => ∀ c : Dev nD,
      r.2.mem ((c : Thread nD τ).loc main_v6)
        = Spec.reluProj (m ((c : Thread nD τ).loc main_arg0)) (msgs m c) (wT m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans ((final m c).trans (by
      show Spec.reluProj (V m c main_arg0) (V m c main_v4) (V m c main_v5) = _
      rw [V_main_arg0, V_msgs, V_wT])), (h c).2⟩)
    (Cert.KernelIdeal.Value.run_blocks m ρ)

end Cert.KernelArray

end
-- ==== Proof.RefIsSpec.lean ====
/-
  The reference's result is the specification: relu ([r | M] · Wt) with M the scatter-added messages and Wt the
  transposed weights, entry by entry. The host's matrix product at (a, q) is the sum over the 224 contracted
  columns; the left factor there is the host's concatenation of r and M read at (a, c); the maximum is taken with
  the broadcast zero.
-/
import proofs.«123264_j2319282340444_1_alg».proof.Proof.Gen.ReferenceIdeal.Read
import proofs.«123264_j2319282340444_1_alg».proof.Proof.LibConcatCols
import proofs.«123264_j2319282340444_1_alg».proof.Proof.Spec

noncomputable section

namespace Cert.RefIsSpec

open Idealize.ShloMosaic Idealize.ShloMosaic.ValueIdx
open Cert.ReferenceIdeal Cert.ReferenceIdeal.Read
open scoped BigOperators

/-- The host's [r | M] at (a, c) is the specification's. -/
theorem cat_apply (x0 : (⟨S100000x128, .f32⟩ : BufTy).Contents (Elt Ideal)) (x1 : (⟨S800000x96, .f32⟩ : BufTy).Contents (Elt Ideal))
    (x2 : (⟨S800000x2, .i32⟩ : BufTy).Contents (Elt Ideal)) (a : Fin 100000) (c : Fin 224) :
    val_main_v5 (F := Ideal) x0 x1 x2 (ix2 a c) = Spec.catRow x0 (val_main_v4 (F := Ideal) x1 x2) a c := by
  unfold val_main_v5
  exact LibConcatCols.concat_cols_apply (by decide) _ _ _ a c

/-- The reference's result array, as a function of the four arguments, is the specification at r, the scattered
    messages and the transposed weights. -/
theorem ref_eq (x0 : (⟨S100000x128, .f32⟩ : BufTy).Contents (Elt Ideal)) (x1 : (⟨S800000x96, .f32⟩ : BufTy).Contents (Elt Ideal))
    (x2 : (⟨S800000x2, .i32⟩ : BufTy).Contents (Elt Ideal)) (x3 : (⟨S96x224, .f32⟩ : BufTy).Contents (Elt Ideal)) :
    val_main_v8 (F := Ideal) x0 x1 x2 x3
      = Spec.reluProj x0 (val_main_v4 (F := Ideal) x1 x2) (val_main_v6 (F := Ideal) x3) := by
  funext i
  obtain ⟨a, q, rfl⟩ : ∃ (a : Fin 100000) (q : Fin 96), i = ix2 a q := ⟨i 0, i 1, eq_ix2 i⟩
  rw [val_main_v8_apply, val_main_v7_apply, val_main_call0_v0_apply, val_main_call0_cst_apply, Spec.reluProj_apply]
  show max _ (Ideal.ofBits .f32 0x00000000#32) = _
  rw [Ideal.ofBits_zero_f32]
  congr 1
  refine Finset.sum_congr rfl fun c _ => ?_
  have el : lidx_main_v7 (ix2 a q) c = ix2 a c := funext fun d => Fin.ext (by
    match d with
    | ⟨0, _⟩ => rfl
    | ⟨1, _⟩ => rfl)
  have er : ridx_main_v7 (ix2 a q) c = ix2 c q := funext fun d => Fin.ext (by
    match d with
    | ⟨0, _⟩ => rfl
    | ⟨1, _⟩ => rfl)
  rw [el, er, cat_apply]

end Cert.RefIsSpec
-- ==== Proof.lean ====
/-
  The kernel and its reference compute one function on the extended reals.

  Both programs first aggregate the edge messages on the host: M = the 800000 message rows of h added onto the rows
  of their destination nodes (column 0 of the edge list), from zero — the same scatter-add of the same operands in
  both — and both transpose the weights, Wt = W_outᵀ. The reference then joins r and M side by side, multiplies by Wt
  and takes the maximum with 0. The kernel does the same 4000 rows at a time: at grid point t it joins rows
  4000 t … 4000 t + 3999 of r and of M, multiplies by the whole Wt on the matrix unit from a zero accumulator (the
  rounding of both factors to bf16 is the identity on the extended reals), takes the maximum with 0 and writes rows
  4000 t … 4000 t + 3999 of the result. Entry (a, q) of either result is

      max (Σ_{c < 224} [r | M] (a, c) · Wt (c, q)) 0,

  the 224 products added in the same order, so no law of arithmetic beyond 0 + x = x is needed and the finiteness of
  the inputs is never used. The kernel's idealization rewrote no operation, so there is nothing to preserve.
-/
import proofs.«123264_j2319282340444_1_alg».proof.Defs
import proofs.«123264_j2319282340444_1_alg».proof.Proof.Gen.Kernel
import proofs.«123264_j2319282340444_1_alg».proof.Proof.Gen.Kernel.Skeleton
import proofs.«123264_j2319282340444_1_alg».proof.Proof.Gen.Kernel.Launch
import proofs.«123264_j2319282340444_1_alg».proof.Proof.Gen.Kernel.Points
import proofs.«123264_j2319282340444_1_alg».proof.Proof.Gen.Kernel.Frame
import proofs.«123264_j2319282340444_1_alg».proof.Proof.Gen.KernelIdeal
import proofs.«123264_j2319282340444_1_alg».proof.Proof.Gen.KernelIdeal.Skeleton
import proofs.«123264_j2319282340444_1_alg».proof.Proof.Gen.KernelIdeal.Launch
import proofs.«123264_j2319282340444_1_alg».proof.Proof.Gen.KernelIdeal.Points
import proofs.«123264_j2319282340444_1_alg».proof.Proof.Gen.KernelIdeal.Frame
import proofs.«123264_j2319282340444_1_alg».proof.Proof.Gen.ReferenceIdeal
import proofs.«123264_j2319282340444_1_alg».proof.Proof.Gen.Pre_finite_inputs
import proofs.«123264_j2319282340444_1_alg».proof.Proof.Gen.KernelIdeal.Value
import proofs.«123264_j2319282340444_1_alg».proof.Proof.Gen.ReferenceIdeal.Run
import proofs.«123264_j2319282340444_1_alg».proof.Proof.Gen.ReferenceIdeal.Read
import proofs.«123264_j2319282340444_1_alg».proof.Proof.KernelArray
import proofs.«123264_j2319282340444_1_alg».proof.Proof.RefIsSpec
import Idealize.ShloMosaic.Adequacy
import Idealize.ShloMosaic.Init

noncomputable section

namespace Cert.Proof

open Idealize.ShloMosaic Idealize.SL.Sem Cert.Kernel

/-- The word-level kernel runs and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference is a straight line of host operations: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation was rewritten. -/
theorem preserves : Cert.preserves_Kernel_KernelIdeal := trivial

/-- From arguments that agree, the kernel's result array ends at relu ([r | M] · Wt) block by block and the reference's
    at the same function computed whole; M and Wt are the same host terms of the same arguments on both sides. -/
theorem algebraic : Cert.algebraic_KernelIdeal_ReferenceIdeal := by
  intro m ρ m' ρ' _ hagree
  refine ⟨_, Cert.KernelArray.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v8_eq, Cert.RefIsSpec.ref_eq,
    (hagree c).1, (hagree c).2.1, (hagree c).2.2.1, (hagree c).2.2.2]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
